-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x512x1x1x64 : Shape := ⟨6, ![8, 8, 512, 1, 1, 64]⟩
abbrev S8x8x1x512x4x64 : Shape := ⟨6, ![8, 8, 1, 512, 4, 64]⟩
abbrev S8x8x512x4x64 : Shape := ⟨5, ![8, 8, 512, 4, 64]⟩
abbrev S8x512x512 : Shape := ⟨3, ![8, 512, 512]⟩
abbrev S8x1x512x512 : Shape := ⟨4, ![8, 1, 512, 512]⟩
abbrev S_ : Shape := ⟨0, ![]⟩

class Facts : Prop where
  bcast_S_S8x8x512x1x1x64 : S_.BroadcastsInDim S8x8x512x1x1x64 (![] : Fin 0 → Fin S8x8x512x1x1x64.rank)
  reducesTo_S8x8x512x1x1x64_S_d0_1_2_3_4_5 : S8x8x512x1x1x64.ReducesTo [0, 1, 2, 3, 4, 5] S_
  h_S_ : 0 < S_.numel
  bcast_S_S8x8x1x512x4x64 : S_.BroadcastsInDim S8x8x1x512x4x64 (![] : Fin 0 → Fin S8x8x1x512x4x64.rank)
  reducesTo_S8x8x1x512x4x64_S_d0_1_2_3_4_5 : S8x8x1x512x4x64.ReducesTo [0, 1, 2, 3, 4, 5] S_
  bcast_S_S8x8x512x4x64 : S_.BroadcastsInDim S8x8x512x4x64 (![] : Fin 0 → Fin S8x8x512x4x64.rank)
  reducesTo_S8x8x512x4x64_S_d0_1_2_3_4 : S8x8x512x4x64.ReducesTo [0, 1, 2, 3, 4] S_
  bcast_S_S8x512x512 : S_.BroadcastsInDim S8x512x512 (![] : Fin 0 → Fin S8x512x512.rank)
  reducesTo_S8x512x512_S_d0_1_2 : S8x512x512.ReducesTo [0, 1, 2] S_

variable [Facts]

def fn_part1 {F : FTy → Type} [FloatOps F] (main_v13 : IVec S_ 1) (main_v16 : IVec S8x512x512 1) : IVec S_ 1 :=
  let main_c_5 : IVec S_ 1 := constantI S_ 1 1#1
  let main_v17 : IVec S_ 1 := (fun x v => Host.reduce IntOp.andi x v reducesTo_S8x512x512_S_d0_1_2 h_S_) main_v16 main_c_5
  let main_v18 : IVec S_ 1 := andi main_v13 main_v17
  main_v18

def fn {F : FTy → Type} [FloatOps F] (main_arg0 : FVec F S8x8x512x1x1x64 .f32) (main_arg1 : FVec F S8x8x1x512x4x64 .f32) (main_arg2 : FVec F S8x8x512x4x64 .f32) (main_arg3 : FVec F S8x512x512 .f32) (main_arg4 : IVec S8x1x512x512 1) : IVec S_ 1 :=
  let main_v0 : FVec F S8x8x512x1x1x64 .f32 := Host.absf main_arg0
  let main_cst : FVec F S_ .f32 := constant S_ .f32 0x7F800000#32
  let main_v1 : FVec F S8x8x512x1x1x64 .f32 := broadcastInDim S8x8x512x1x1x64 ![] bcast_S_S8x8x512x1x1x64 main_cst
  let main_v2 : IVec S8x8x512x1x1x64 1 := cmpf .olt main_v0 main_v1
  let main_c : IVec S_ 1 := constantI S_ 1 1#1
  let main_v3 : IVec S_ 1 := (fun x v => Host.reduce IntOp.andi x v reducesTo_S8x8x512x1x1x64_S_d0_1_2_3_4_5 h_S_) main_v2 main_c
  let main_v4 : FVec F S8x8x1x512x4x64 .f32 := Host.absf main_arg1
  let main_cst_0 : FVec F S_ .f32 := constant S_ .f32 0x7F800000#32
  let main_v5 : FVec F S8x8x1x512x4x64 .f32 := broadcastInDim S8x8x1x512x4x64 ![] bcast_S_S8x8x1x512x4x64 main_cst_0
  let main_v6 : IVec S8x8x1x512x4x64 1 := cmpf .olt main_v4 main_v5
  let main_c_1 : IVec S_ 1 := constantI S_ 1 1#1
  let main_v7 : IVec S_ 1 := (fun x v => Host.reduce IntOp.andi x v reducesTo_S8x8x1x512x4x64_S_d0_1_2_3_4_5 h_S_) main_v6 main_c_1
  let main_v8 : IVec S_ 1 := andi main_v3 main_v7
  let main_v9 : FVec F S8x8x512x4x64 .f32 := Host.absf main_arg2
  let main_cst_2 : FVec F S_ .f32 := constant S_ .f32 0x7F800000#32
  let main_v10 : FVec F S8x8x512x4x64 .f32 := broadcastInDim S8x8x512x4x64 ![] bcast_S_S8x8x512x4x64 main_cst_2
  let main_v11 : IVec S8x8x512x4x64 1 := cmpf .olt main_v9 main_v10
  let main_c_3 : IVec S_ 1 := constantI S_ 1 1#1
  let main_v12 : IVec S_ 1 := (fun x v => Host.reduce IntOp.andi x v reducesTo_S8x8x512x4x64_S_d0_1_2_3_4 h_S_) main_v11 main_c_3
  let main_v13 : IVec S_ 1 := andi main_v8 main_v12
  let main_v14 : FVec F S8x512x512 .f32 := Host.absf main_arg3
  let main_cst_4 : FVec F S_ .f32 := constant S_ .f32 0x7F800000#32
  let main_v15 : FVec F S8x512x512 .f32 := broadcastInDim S8x512x512 ![] bcast_S_S8x512x512 main_cst_4
  let main_v16 : IVec S8x512x512 1 := cmpf .olt main_v14 main_v15
  fn_part1 (F := F) main_v13 main_v16
-- ==== Kernel.lean ====
abbrev S8x8x512x1x1x64 : Shape := ⟨6, ![8, 8, 512, 1, 1, 64]⟩
abbrev S8x8x1x512x4x64 : Shape := ⟨6, ![8, 8, 1, 512, 4, 64]⟩
abbrev S8x8x512x4x64 : Shape := ⟨5, ![8, 8, 512, 4, 64]⟩
abbrev S8x512x512 : Shape := ⟨3, ![8, 512, 512]⟩
abbrev S8x1x512x512 : Shape := ⟨4, ![8, 1, 512, 512]⟩
abbrev S8x8x512x64 : Shape := ⟨4, ![8, 8, 512, 64]⟩
abbrev S8x8x512x256 : Shape := ⟨4, ![8, 8, 512, 256]⟩
abbrev S8x8x512x512 : Shape := ⟨4, ![8, 8, 512, 512]⟩
abbrev S1x1x512x64 : Shape := ⟨4, ![1, 1, 512, 64]⟩
abbrev S1x1x512x256 : Shape := ⟨4, ![1, 1, 512, 256]⟩
abbrev S1x512x512 : Shape := ⟨3, ![1, 512, 512]⟩
abbrev S1x1x512x512 : Shape := ⟨4, ![1, 1, 512, 512]⟩
abbrev S512x64 : Shape := ⟨2, ![512, 64]⟩
abbrev S512x256 : Shape := ⟨2, ![512, 256]⟩
abbrev S64x512 : Shape := ⟨2, ![64, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8x8x512x1x1x64, .f32⟩
  | .hbm, ⟨1, _⟩ => ⟨S8x8x1x512x4x64, .f32⟩
  | .hbm, ⟨2, _⟩ => ⟨S8x8x512x4x64, .f32⟩
  | .hbm, ⟨3, _⟩ => ⟨S8x512x512, .f32⟩
  | .hbm, ⟨4, _⟩ => ⟨S8x1x512x512, .i1⟩
  | .hbm, ⟨5, _⟩ => ⟨S8x8x512x64, .f32⟩
  | .hbm, ⟨6, _⟩ => ⟨S8x8x512x4x64, .f32⟩
  | .hbm, ⟨7, _⟩ => ⟨S8x8x512x256, .f32⟩
  | .hbm, ⟨8, _⟩ => ⟨S8x8x512x256, .f32⟩
  | .hbm, ⟨9, _⟩ => ⟨S8x512x512, .i1⟩
  | .hbm, ⟨10, _⟩ => ⟨S8x512x512, .i32⟩
  | .hbm, ⟨11, _⟩ => ⟨S8x8x512x64, .f32⟩
  | .hbm, ⟨12, _⟩ => ⟨S8x8x512x512, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x512x256, .f32⟩
  | .local _ .vmem, ⟨3, _⟩ => ⟨S1x1x512x256, .f32⟩
  | .local _ .vmem, ⟨4, _⟩ => ⟨S1x1x512x256, .f32⟩
  | .local _ .vmem, ⟨5, _⟩ => ⟨S1x1x512x256, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .i32⟩
  | .local _ .vmem, ⟨9, _⟩ => ⟨S1x512x512, .i32⟩
  | .local _ .vmem, ⟨10, _⟩ => ⟨S1x1x512x64, .f32⟩
  | .local _ .vmem, ⟨11, _⟩ => ⟨S1x1x512x64, .f32⟩
  | .local _ .vmem, ⟨12, _⟩ => ⟨S1x1x512x512, .f32⟩
  | .local _ .vmem, ⟨13, _⟩ => ⟨S1x1x512x512, .f32⟩
  | _, _ => ⟨S8x8x512x1x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8x8x512x1x1x64_S8x8x512x64 : S8x8x512x1x1x64.ShapeCasts S8x8x512x64
  shapeCasts_S8x8x1x512x4x64_S8x8x512x4x64 : S8x8x1x512x4x64.ShapeCasts S8x8x512x4x64
  shapeCasts_S8x8x512x4x64_S8x8x512x256 : S8x8x512x4x64.ShapeCasts S8x8x512x256
  shapeCasts_S8x1x512x512_S8x512x512 : S8x1x512x512.ShapeCasts S8x512x512
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x512x256_S1x1x512x256_0_0_0_0 : ∀ a, (![0, 0, 0, 0] : Fin 4 → Nat) a + S1x1x512x256.size a ≤ S1x1x512x256.size a
  h_S1x1x512x256 : 0 < S1x1x512x256.numel
  shapeCasts_S1x1x512x256_S512x256 : S1x1x512x256.ShapeCasts S512x256
  slices_S512x256_o0_0_S512x64 : S512x256.Slices ![0, 0] S512x64
  slices_S512x256_o0_64_S512x64 : S512x256.Slices ![0, 64] S512x64
  slices_S512x256_o0_128_S512x64 : S512x256.Slices ![0, 128] S512x64
  slices_S512x256_o0_192_S512x64 : S512x256.Slices ![0, 192] S512x64
  transposes_S512x64_p1_0_S64x512 : S512x64.Transposes [1, 0] S64x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x512 : S512x1.Broadcasts S512x512
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  shapeCasts_S512x64_S1x1x512x64 : S512x64.ShapeCasts S1x1x512x64
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S8x8x512x64.size a
  hwx0_0 : ∀ i : grid0.Coords, EltTy.bits .f32 = 32 ∨ (Rect.block (s := S8x8x512x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x256.size a ≤ S8x8x512x256.size a
  hwx0_1 : ∀ i : grid0.Coords, EltTy.bits .f32 = 32 ∨ (Rect.block (s := S8x8x512x256) S1x1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x256.size a ≤ S8x8x512x256.size a
  hwx0_2 : ∀ i : grid0.Coords, EltTy.bits .f32 = 32 ∨ (Rect.block (s := S8x8x512x256) S1x1x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x512x512.size a
  hwx0_3 : ∀ i : grid0.Coords, EltTy.bits .f32 = 32 ∨ (Rect.block (s := S8x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S8x512x512.size a
  hwx0_4 : ∀ i : grid0.Coords, EltTy.bits .i32 = 32 ∨ (Rect.block (s := S8x512x512) S1x512x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x64.size a ≤ S8x8x512x64.size a
  hwx0_5 : ∀ i : grid0.Coords, EltTy.bits .f32 = 32 ∨ (Rect.block (s := S8x8x512x64) S1x1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x512.size a ≤ S8x8x512x512.size a
  hwx0_6 : ∀ i : grid0.Coords, EltTy.bits .f32 = 32 ∨ (Rect.block (s := S8x8x512x512) S1x1x512x512.size (cc0_transform_6 i) (hinb0_6 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x8x512x1x1x64 : Shape := ⟨6, ![8, 8, 512, 1, 1, 64]⟩
abbrev S8x8x1x512x4x64 : Shape := ⟨6, ![8, 8, 1, 512, 4, 64]⟩
abbrev S8x8x512x4x64 : Shape := ⟨5, ![8, 8, 512, 4, 64]⟩
abbrev S8x512x512 : Shape := ⟨3, ![8, 512, 512]⟩
abbrev S8x1x512x512 : Shape := ⟨4, ![8, 1, 512, 512]⟩
abbrev S8x8x512x64 : Shape := ⟨4, ![8, 8, 512, 64]⟩
abbrev S_ : Shape := ⟨0, ![]⟩
abbrev S8x8x512x512 : Shape := ⟨4, ![8, 8, 512, 512]⟩
abbrev S8x8x512 : Shape := ⟨3, ![8, 8, 512]⟩
abbrev S8x8x512x1 : Shape := ⟨4, ![8, 8, 512, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x8x512x1x1x64, .f32⟩
  | .hbm, ⟨1, _⟩ => ⟨S8x8x1x512x4x64, .f32⟩
  | .hbm, ⟨2, _⟩ => ⟨S8x8x512x4x64, .f32⟩
  | .hbm, ⟨3, _⟩ => ⟨S8x512x512, .f32⟩
  | .hbm, ⟨4, _⟩ => ⟨S8x1x512x512, .i1⟩
  | .hbm, ⟨5, _⟩ => ⟨S8x8x512x64, .f32⟩
  | .hbm, ⟨6, _⟩ => ⟨S8x8x512x4x64, .f32⟩
  | .hbm, ⟨7, _⟩ => ⟨S_, .f32⟩
  | .hbm, ⟨8, _⟩ => ⟨S8x8x512x64, .f32⟩
  | .hbm, ⟨9, _⟩ => ⟨S8x8x512x64, .f32⟩
  | .hbm, ⟨10, _⟩ => ⟨S_, .f32⟩
  | .hbm, ⟨11, _⟩ => ⟨S8x8x512x64, .f32⟩
  | .hbm, ⟨12, _⟩ => ⟨S8x8x512x512, .f32⟩
  | .hbm, ⟨13, _⟩ => ⟨S8x1x512x512, .f32⟩
  | .hbm, ⟨14, _⟩ => ⟨S8x8x512x512, .f32⟩
  | .hbm, ⟨15, _⟩ => ⟨S8x8x512x512, .f32⟩
  | .hbm, ⟨16, _⟩ => ⟨S_, .f32⟩
  | .hbm, ⟨17, _⟩ => ⟨S_, .f32⟩
  | .hbm, ⟨18, _⟩ => ⟨S8x8x512x512, .i1⟩
  | .hbm, ⟨19, _⟩ => ⟨S8x8x512x512, .f32⟩
  | .hbm, ⟨20, _⟩ => ⟨S8x8x512x512, .f32⟩
  | .hbm, ⟨21, _⟩ => ⟨S_, .f32⟩
  | .hbm, ⟨22, _⟩ => ⟨S8x8x512, .f32⟩
  | .hbm, ⟨23, _⟩ => ⟨S_, .f32⟩
  | .hbm, ⟨24, _⟩ => ⟨S8x8x512, .f32⟩
  | .hbm, ⟨25, _⟩ => ⟨S8x8x512, .f32⟩
  | .hbm, ⟨26, _⟩ => ⟨S8x8x512x1, .f32⟩
  | .hbm, ⟨27, _⟩ => ⟨S8x8x512x512, .f32⟩
  | .hbm, ⟨28, _⟩ => ⟨S8x8x512x512, .f32⟩
  | .hbm, ⟨29, _⟩ => ⟨S8x8x512x512, .f32⟩
  | .hbm, ⟨30, _⟩ => ⟨S_, .f32⟩
  | .hbm, ⟨31, _⟩ => ⟨S8x8x512, .f32⟩
  | .hbm, ⟨32, _⟩ => ⟨S8x8x512x1, .f32⟩
  | .hbm, ⟨33, _⟩ => ⟨S8x8x512x512, .f32⟩
  | .hbm, ⟨34, _⟩ => ⟨S8x8x512x512, .f32⟩
  | .hbm, ⟨35, _⟩ => ⟨S_, .f32⟩
  | .hbm, ⟨36, _⟩ => ⟨S8x8x512x64, .f32⟩
  | .hbm, ⟨37, _⟩ => ⟨S8x8x512x64, .f32⟩
  | _, _ => ⟨S8x8x512x1x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  shapeCasts_S8x8x512x1x1x64_S8x8x512x64 : S8x8x512x1x1x64.ShapeCasts S8x8x512x64
  shapeCasts_S8x8x1x512x4x64_S8x8x512x4x64 : S8x8x1x512x4x64.ShapeCasts S8x8x512x4x64
  bcast_S_S8x8x512x64 : S_.BroadcastsInDim S8x8x512x64 (![] : Fin 0 → Fin S8x8x512x64.rank)
  reducesTo_S8x8x512x4x64_S8x8x512x64_d3 : S8x8x512x4x64.ReducesTo [3] S8x8x512x64
  h_S_ : 0 < S_.numel
  bcast_S8x512x512_S8x1x512x512_0_2_3 : S8x512x512.BroadcastsInDim S8x1x512x512 (![0, 2, 3] : Fin 3 → Fin S8x1x512x512.rank)
  bcast_S8x1x512x512_S8x8x512x512_0_1_2_3 : S8x1x512x512.BroadcastsInDim S8x8x512x512 (![0, 1, 2, 3] : Fin 4 → Fin S8x8x512x512.rank)
  bcast_S_S8x8x512x512 : S_.BroadcastsInDim S8x8x512x512 (![] : Fin 0 → Fin S8x8x512x512.rank)
  reducesTo_S8x8x512x512_S8x8x512_d3 : S8x8x512x512.ReducesTo [3] S8x8x512
  bcast_S_S8x8x512 : S_.BroadcastsInDim S8x8x512 (![] : Fin 0 → Fin S8x8x512.rank)
  bcast_S8x8x512_S8x8x512x1_0_1_2 : S8x8x512.BroadcastsInDim S8x8x512x1 (![0, 1, 2] : Fin 3 → Fin S8x8x512x1.rank)
  bcast_S8x8x512x1_S8x8x512x512_0_1_2_3 : S8x8x512x1.BroadcastsInDim S8x8x512x512 (![0, 1, 2, 3] : Fin 4 → Fin S8x8x512x512.rank)
  dot_S8x8x512x64_S8x8x512x64_S8x8x512x512_3_3_2_2_01_01_wf : DotDims.WF S8x8x512x64 S8x8x512x64 S8x8x512x512 [3] [3] [2] [2] [0, 1] [0, 1]
  dot_S8x8x512x512_S8x8x512x64_S8x8x512x64_3_2_2_3_01_01_wf : DotDims.WF S8x8x512x512 S8x8x512x64 S8x8x512x64 [3] [2] [2] [3] [0, 1] [0, 1]

variable [Facts₀]

def dot_S8x8x512x64_S8x8x512x64_S8x8x512x512_3_3_2_2_01_01 : DotDims S8x8x512x64 S8x8x512x64 S8x8x512x512 where
  lhsContracting := [3]
  rhsContracting := [3]
  lhsNonContracting := [2]
  rhsNonContracting := [2]
  lhsBatch := [0, 1]
  rhsBatch := [0, 1]
  wf := dot_S8x8x512x64_S8x8x512x64_S8x8x512x512_3_3_2_2_01_01_wf
def dot_S8x8x512x512_S8x8x512x64_S8x8x512x64_3_2_2_3_01_01 : DotDims S8x8x512x512 S8x8x512x64 S8x8x512x64 where
  lhsContracting := [3]
  rhsContracting := [2]
  lhsNonContracting := [2]
  rhsNonContracting := [3]
  lhsBatch := [0, 1]
  rhsBatch := [0, 1]
  wf := dot_S8x8x512x512_S8x8x512x64_S8x8x512x64_3_2_2_3_01_01_wf

class Facts : Prop extends Facts₀ where

variable [Facts]
-- ==== Proof.Spec.lean ====
/-
  The mathematics of one attention head, and of the whole batch of heads, as functions of the argument arrays.

  For a head (batch entry `b`, head `h`) with queries `q r d` (512 rows, 64 features), keys and values already summed
  over their four replicas (`ks j d`, `vs j d`), a weight `w r c` and a one-bit mask `mk r c`:
    logit r c   = if the mask bit is set then the fill value -1e9 else (∑ d, (q r d · 1/8) · ks c d) · w r c
    attn  r c   = exp (logit r c - max over the row) / ∑ c', exp (logit r c' - max over the row)      (a row softmax)
    out   r d   = ∑ j, attn r j · vs j d
  The whole arrays apply this head by head; `w` and the mask depend on the batch entry only.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The f32 word of `0.125`, the reciprocal of the temperature `8`. -/
abbrev eighth : EReal := Ideal.ofBits .f32 0x3E000000#32
/-- The f32 word of `-1e9`, written where the mask is set. -/
abbrev fill : EReal := Ideal.ofBits .f32 0xCE6E6B28#32
/-- The f32 word of `-∞`, from which a row's maximum is folded. -/
abbrev negInf : EReal := Ideal.ofBits .f32 0xFF800000#32

/-- The sum of four replicas, associated to the left. -/
def sum4 (f : Fin 4 → EReal) : EReal := ((f 0 + f 1) + f 2) + f 3

/-- A row's maximum, folded from `-∞`. -/
def rowMax (row : Fin 512 → EReal) : EReal := (Finset.univ : Finset (Fin 512)).fold max negInf row

/-- The softmax of a row at column `c`. -/
def softmax (row : Fin 512 → EReal) (c : Fin 512) : EReal :=
  Ideal.div (Ideal.exp (row c - rowMax row)) (∑ c' : Fin 512, Ideal.exp (row c' - rowMax row))

/-- The masked, weighted score of query row `r` against key row `c`. -/
def logit (q ks : Fin 512 → Fin 64 → EReal) (w : Fin 512 → Fin 512 → EReal) (mk : Fin 512 → Fin 512 → BitVec 1)
    (r c : Fin 512) : EReal :=
  Scalar.select (mk r c) fill ((∑ d : Fin 64, (q r d * eighth) * ks c d) * w r c)

/-- The attention probabilities of one head. -/
def attnH (q ks : Fin 512 → Fin 64 → EReal) (w : Fin 512 → Fin 512 → EReal) (mk : Fin 512 → Fin 512 → BitVec 1)
    (r c : Fin 512) : EReal :=
  softmax (logit q ks w mk r) c

/-- The output of one head: the probabilities applied to the summed values. -/
def outH (q ks vs : Fin 512 → Fin 64 → EReal) (w : Fin 512 → Fin 512 → EReal) (mk : Fin 512 → Fin 512 → BitVec 1)
    (r : Fin 512) (d : Fin 64) : EReal :=
  ∑ j : Fin 512, attnH q ks w mk r j * vs j d

/-! ## The whole arrays -/

abbrev SQ : Shape := ⟨4, ![8, 8, 512, 64]⟩
abbrev SK : Shape := ⟨5, ![8, 8, 512, 4, 64]⟩
abbrev SW : Shape := ⟨3, ![8, 512, 512]⟩
abbrev SM : Shape := ⟨4, ![8, 1, 512, 512]⟩
abbrev SA : Shape := ⟨4, ![8, 8, 512, 512]⟩

/-- The queries of head `(b, h)`. -/
def qHead (Q : SQ.Idx → EReal) (b h : Fin 8) : Fin 512 → Fin 64 → EReal := fun r d => Q (ix4 b h r d)
/-- The keys (or values) of head `(b, h)`, summed over the four replicas. -/
def kHead (K : SK.Idx → EReal) (b h : Fin 8) : Fin 512 → Fin 64 → EReal := fun j d => sum4 fun r' => K (ix5 b h j r' d)
/-- The weights of batch entry `b`. -/
def wHead (W : SW.Idx → EReal) (b : Fin 8) : Fin 512 → Fin 512 → EReal := fun r c => W (ix3 b r c)
/-- The mask of batch entry `b`. -/
def mHead (M : SM.Idx → BitVec 1) (b : Fin 8) : Fin 512 → Fin 512 → BitVec 1 := fun r c => M (ix4 b 0 r c)

/-- The attention probabilities, all heads. -/
def attnAll (Q : SQ.Idx → EReal) (K : SK.Idx → EReal) (W : SW.Idx → EReal) (M : SM.Idx → BitVec 1) : SA.Idx → EReal :=
  fun i => attnH (qHead Q (i 0) (i 1)) (kHead K (i 0) (i 1)) (wHead W (i 0)) (mHead M (i 0)) (i 2) (i 3)

/-- The outputs, all heads. -/
def outAll (Q : SQ.Idx → EReal) (K V : SK.Idx → EReal) (W : SW.Idx → EReal) (M : SM.Idx → BitVec 1) : SQ.Idx → EReal :=
  fun i => outH (qHead Q (i 0) (i 1)) (kHead K (i 0) (i 1)) (kHead V (i 0) (i 1)) (wHead W (i 0)) (mHead M (i 0)) (i 2) (i 3)

theorem attnAll_ix (Q : SQ.Idx → EReal) (K : SK.Idx → EReal) (W : SW.Idx → EReal) (M : SM.Idx → BitVec 1)
    (b h : Fin 8) (r c : Fin 512) :
    attnAll Q K W M (ix4 b h r c) = attnH (qHead Q b h) (kHead K b h) (wHead W b) (mHead M b) r c := rfl

theorem outAll_ix (Q : SQ.Idx → EReal) (K V : SK.Idx → EReal) (W : SW.Idx → EReal) (M : SM.Idx → BitVec 1)
    (b h : Fin 8) (r : Fin 512) (d : Fin 64) :
    outAll Q K V W M (ix4 b h r d) = outH (qHead Q b h) (kHead K b h) (kHead V b h) (wHead W b) (mHead M b) r d := rfl

/-! ## The three laws that join the two spellings -/

/-- `8.0` denotes the real `8`. -/
theorem ofBits_eight : Ideal.ofBits .f32 0x41000000#32 = ((8 : ℝ) : EReal) := by
  simp [Ideal.ofBits, Ideal.ieee, -EReal.coe_mul]; norm_num

/-- `0.125` denotes the real `1/8`. -/
theorem ofBits_eighth : Ideal.ofBits .f32 0x3E000000#32 = ((1 / 8 : ℝ) : EReal) := by
  simp [Ideal.ofBits, Ideal.ieee, -EReal.coe_mul]; norm_num

/-- Dividing by `8` is multiplying by `0.125`, on every extended real. -/
theorem div_eight (x : EReal) : Ideal.div x (Ideal.ofBits .f32 0x41000000#32) = x * eighth := by
  rw [ofBits_eight, Ideal.div_coe (by norm_num : (8 : ℝ) ≠ 0)]
  show _ = x * Ideal.ofBits .f32 0x3E000000#32
  rw [ofBits_eighth]

/-- A sum over four replicas started from the zero word is the left-associated sum. -/
theorem zero_add_sum4 (f : Fin 4 → EReal) : Ideal.ofBits .f32 0x00000000#32 + ∑ k : Fin 4, f k = sum4 f := by
  rw [Ideal.ofBits_zero_f32, zero_add, Fin.sum_univ_four]; rfl

/-- Taking the maximum with `-∞` once more changes nothing: the fold already started there. -/
theorem max_negInf_rowMax (row : Fin 512 → EReal) : max negInf (rowMax row) = rowMax row :=
  max_eq_right ((Finset.le_fold_max _).mpr (Or.inl le_rfl))

end Cert.Attn

end
-- ==== Proof.Layout.lean ====
/-
  Re-layings read at an index, at the literal shapes of this kernel: dropping or adding leading unit axes, the
  four column slices of a 256-wide row, a transpose, the column of row values broadcast along the rows, and the
  host's merges of (replica, feature) into one 256-wide axis. Each says which element of the operand an element of
  the result is; all are positions in row-major order.
-/
import Idealize.ShloMosaic.Lib.ValueIdx
import Idealize.ShloMosaic.Lib.Pipeline.Value
import Idealize.ShloMosaic.PureOps.Ideal.Laws

noncomputable section

namespace Cert.Attn.Layout

open Idealize.ShloMosaic Idealize.ShloMosaic.ValueIdx

variable {α : Type}

/-- `[1,1,512,64] → [512,64]`: element `(r, d)` is element `(0, 0, r, d)`. -/
theorem drop2_64 (x : (⟨4, ![1, 1, 512, 64]⟩ : Shape).Idx → α) (h : (⟨4, ![1, 1, 512, 64]⟩ : Shape).ShapeCasts ⟨2, ![512, 64]⟩)
    (r : Fin 512) (d : Fin 64) : shapeCast ⟨2, ![512, 64]⟩ x h (ix2 r d) = x (ix4 0 0 r d) :=
  shapeCast_apply x h (ix2 r d) (ix4 0 0 r d) (by
    rw [Shape.rowMajor_val_four, Shape.rowMajor_val_two]
    show ((0 * 1 + 0) * 512 + r.val) * 64 + d.val = r.val * 64 + d.val; omega)

/-- `[512,64] → [1,1,512,64]`: element `(0, 0, r, d)` is element `(r, d)`. -/
theorem add2_64 (x : (⟨2, ![512, 64]⟩ : Shape).Idx → α) (h : (⟨2, ![512, 64]⟩ : Shape).ShapeCasts ⟨4, ![1, 1, 512, 64]⟩)
    (u v : Fin 1) (r : Fin 512) (d : Fin 64) : shapeCast ⟨4, ![1, 1, 512, 64]⟩ x h (ix4 u v r d) = x (ix2 r d) :=
  shapeCast_apply x h (ix4 u v r d) (ix2 r d) (by
    rw [Shape.rowMajor_val_four, Shape.rowMajor_val_two]
    show r.val * 64 + d.val = ((u.val * 1 + v.val) * 512 + r.val) * 64 + d.val
    have := u.isLt; have := v.isLt; omega)

/-- `[1,1,512,256] → [512,256]`. -/
theorem drop2_256 (x : (⟨4, ![1, 1, 512, 256]⟩ : Shape).Idx → α) (h : (⟨4, ![1, 1, 512, 256]⟩ : Shape).ShapeCasts ⟨2, ![512, 256]⟩)
    (r : Fin 512) (e : Fin 256) : shapeCast ⟨2, ![512, 256]⟩ x h (ix2 r e) = x (ix4 0 0 r e) :=
  shapeCast_apply x h (ix2 r e) (ix4 0 0 r e) (by
    rw [Shape.rowMajor_val_four, Shape.rowMajor_val_two]
    show ((0 * 1 + 0) * 512 + r.val) * 256 + e.val = r.val * 256 + e.val; omega)

/-- `[1,512,512] → [512,512]`. -/
theorem drop1_512 (x : (⟨3, ![1, 512, 512]⟩ : Shape).Idx → α) (h : (⟨3, ![1, 512, 512]⟩ : Shape).ShapeCasts ⟨2, ![512, 512]⟩)
    (r c : Fin 512) : shapeCast ⟨2, ![512, 512]⟩ x h (ix2 r c) = x (ix3 0 r c) :=
  shapeCast_apply x h (ix2 r c) (ix3 0 r c) (by
    rw [Shape.rowMajor_val_three, Shape.rowMajor_val_two]
    show (0 * 512 + r.val) * 512 + c.val = r.val * 512 + c.val; omega)

/-- `[512,512] → [1,1,512,512]`. -/
theorem add2_512 (x : (⟨2, ![512, 512]⟩ : Shape).Idx → α) (h : (⟨2, ![512, 512]⟩ : Shape).ShapeCasts ⟨4, ![1, 1, 512, 512]⟩)
    (u v : Fin 1) (r c : Fin 512) : shapeCast ⟨4, ![1, 1, 512, 512]⟩ x h (ix4 u v r c) = x (ix2 r c) :=
  shapeCast_apply x h (ix4 u v r c) (ix2 r c) (by
    rw [Shape.rowMajor_val_four, Shape.rowMajor_val_two]
    show r.val * 512 + c.val = ((u.val * 1 + v.val) * 512 + r.val) * 512 + c.val
    have := u.isLt; have := v.isLt; omega)

/-- The slice of 64 columns starting at column `o` of a 256-wide row: element `(r, d)` is element `(r, o + d)`. -/
theorem slice64 (o : Nat) (ho : o + 64 ≤ 256) (x : (⟨2, ![512, 256]⟩ : Shape).Idx → α)
    (h : (⟨2, ![512, 256]⟩ : Shape).Slices ![0, o] ⟨2, ![512, 64]⟩) (r : Fin 512) (d : Fin 64) :
    extractStridedSlice ⟨2, ![512, 64]⟩ ![0, o] x h (ix2 r d) = x (ix2 r ⟨o + d.val, by have := d.isLt; omega⟩) :=
  extractStridedSlice_apply _ x h (ix2 r d) _ (fun a => by
    match a with
    | ⟨0, _⟩ => show r.val = 0 + r.val; omega
    | ⟨1, _⟩ => show o + d.val = o + d.val; rfl)

/-- The transpose `[512,64] → [64,512]`: element `(d, j)` is element `(j, d)`. -/
theorem transpose64 (x : (⟨2, ![512, 64]⟩ : Shape).Idx → α) (h : (⟨2, ![512, 64]⟩ : Shape).Transposes [1, 0] ⟨2, ![64, 512]⟩)
    (d : Fin 64) (j : Fin 512) : transpose ⟨2, ![64, 512]⟩ [1, 0] x h (ix2 d j) = x (ix2 j d) :=
  transpose_apply _ x h (ix2 d j) (ix2 j d) (fun b => by
    match b with
    | ⟨0, _⟩ => rfl
    | ⟨1, _⟩ => rfl)

/-- A vector of row values made a column and broadcast along the rows: element `(r, c)` is the value of row `r`. -/
theorem column_broadcast (u : (⟨1, ![512]⟩ : Shape).Idx → α) (h1 : (⟨1, ![512]⟩ : Shape).ShapeCasts ⟨2, ![512, 1]⟩)
    (h2 : (⟨2, ![512, 1]⟩ : Shape).Broadcasts ⟨2, ![512, 512]⟩) (r c : Fin 512) :
    broadcastTo ⟨2, ![512, 512]⟩ (shapeCast ⟨2, ![512, 1]⟩ u h1) h2 (ix2 r c) = u (ix1 r) := by
  refine (broadcastTo_apply _ h2 (ix2 r c) (ix2 r 0) (fun a => by
    match a with
    | ⟨0, _⟩ => show r.val = (if (512 : Nat) = 1 then 0 else r.val); rw [if_neg (by decide)]
    | ⟨1, _⟩ => show 0 = (if (1 : Nat) = 1 then 0 else c.val); rw [if_pos rfl])).trans ?_
  exact shapeCast_apply u h1 (ix2 r 0) (ix1 r) (by
    rw [Shape.rowMajor_val_one, Shape.rowMajor_val_two]
    show r.val = r.val * 1 + 0; omega)

/-- Inserting coordinate `k` on the reduced (second) axis over row `r` gives the index `(r, k)`. -/
theorem lift_row (h : (⟨2, ![512, 512]⟩ : Shape).Reduces [1] ⟨1, ![512]⟩) (r k : Fin 512) :
    h.lift (ix1 r) k = ix2 r k :=
  funext fun a => Fin.ext (by
    match a with
    | ⟨0, _⟩ => rfl
    | ⟨1, _⟩ => rfl)

/-! ## The host's re-layings before the kernel is launched -/

/-- `[8,8,512,4,64] → [8,8,512,256]`: replica `r'` and feature `d` merge into column `r' · 64 + d`. -/
theorem merge_replicas (x : (⟨5, ![8, 8, 512, 4, 64]⟩ : Shape).Idx → α)
    (h : (⟨5, ![8, 8, 512, 4, 64]⟩ : Shape).ShapeCasts ⟨4, ![8, 8, 512, 256]⟩)
    (b hd : Fin 8) (j : Fin 512) (r' : Fin 4) (d : Fin 64) (e : Fin 256) (he : e.val = r'.val * 64 + d.val) :
    shapeCast ⟨4, ![8, 8, 512, 256]⟩ x h (ix4 b hd j e) = x (ix5 b hd j r' d) :=
  shapeCast_apply x h (ix4 b hd j e) (ix5 b hd j r' d) (by
    rw [Shape.rowMajor_val_five, Shape.rowMajor_val_four]
    show (((b.val * 8 + hd.val) * 512 + j.val) * 4 + r'.val) * 64 + d.val = ((b.val * 8 + hd.val) * 512 + j.val) * 256 + e.val
    omega)

/-- `[8,1,512,512] → [8,512,512]`: the unit axis goes. -/
theorem squeeze_mask (x : (⟨4, ![8, 1, 512, 512]⟩ : Shape).Idx → α)
    (h : (⟨4, ![8, 1, 512, 512]⟩ : Shape).ShapeCasts ⟨3, ![8, 512, 512]⟩) (b : Fin 8) (r c : Fin 512) :
    shapeCast ⟨3, ![8, 512, 512]⟩ x h (ix3 b r c) = x (ix4 b 0 r c) :=
  shapeCast_apply x h (ix3 b r c) (ix4 b 0 r c) (by
    rw [Shape.rowMajor_val_four, Shape.rowMajor_val_three]
    show ((b.val * 1 + 0) * 512 + r.val) * 512 + c.val = (b.val * 512 + r.val) * 512 + c.val
    omega)

/-- A one-bit word widened to 32 bits is non-zero exactly when the bit is set. -/
theorem ne_zero_widen (b : BitVec 1) : IntOp.cmpi .ne (b.setWidth 32) 0#32 = b := by
  rcases BitVec.eq_zero_or_eq_one b with h | h <;> subst h <;> decide

end Cert.Attn.Layout

end
-- ==== Proof.Payload.lean ====
/-
  What the kernel body computes from the blocks it loads, read element by element at the ideal values.

  From the query block `x0`, the key block `x1` and the value block (both 256 wide: four replicas of 64 features side
  by side), the weight block `x3` and the mask block `x4` (32-bit words, non-zero where masked):
    * the replica sum of a 256-wide row at feature `d` is the sum of its columns `d`, `64 + d`, `128 + d`, `192 + d`;
    * the logits are the matrix product of the scaled queries with the transposed key sums, times the weights, with the
      fill value where the mask word is non-zero;
    * the probabilities are the row softmax of the logits, and the output their matrix product with the value sums.
-/
import proofs.«150136_j70858370449467_2_alg».proof.Proof.Gen.KernelIdeal.Skeleton
import proofs.«150136_j70858370449467_2_alg».proof.Proof.Spec
import proofs.«150136_j70858370449467_2_alg».proof.Proof.Layout

noncomputable section

namespace Cert.KernelIdeal.Pay

open Cert.KernelIdeal Cert.KernelIdeal.Gen Idealize.ShloMosaic Idealize.ShloMosaic.ValueIdx Cert.Attn Cert.Attn.Layout

/-- The four replicas of feature `d` in row `j` of a 256-wide block, summed left to right. -/
def flat4 (x : Vec Ideal S1x1x512x256 .f32) (j : Fin 512) (d : Fin 64) : EReal :=
  ((x (ix4 0 0 j ⟨0 + d.val, by have := d.isLt; omega⟩) + x (ix4 0 0 j ⟨64 + d.val, by have := d.isLt; omega⟩))
    + x (ix4 0 0 j ⟨128 + d.val, by have := d.isLt; omega⟩)) + x (ix4 0 0 j ⟨192 + d.val, by have := d.isLt; omega⟩)

/-- The sum of the four 64-column slices of a 256-wide array, at `(j, d)`. -/
theorem slices_sum_apply (y : FVec Ideal S512x256 .f32) (j : Fin 512) (d : Fin 64) :
    addf (F := Ideal) (φ := .f32) (addf (addf (extractStridedSlice S512x64 ![0, 0] y Facts₀.slices_S512x256_o0_0_S512x64)
        (extractStridedSlice S512x64 ![0, 64] y Facts₀.slices_S512x256_o0_64_S512x64))
        (extractStridedSlice S512x64 ![0, 128] y Facts₀.slices_S512x256_o0_128_S512x64))
        (extractStridedSlice S512x64 ![0, 192] y Facts₀.slices_S512x256_o0_192_S512x64) (ix2 j d)
      = ((y (ix2 j ⟨0 + d.val, by have := d.isLt; omega⟩) + y (ix2 j ⟨64 + d.val, by have := d.isLt; omega⟩))
          + y (ix2 j ⟨128 + d.val, by have := d.isLt; omega⟩)) + y (ix2 j ⟨192 + d.val, by have := d.isLt; omega⟩) := by
  show ((_ + _) + _) + _ = _
  rw [slice64 0 (by omega) y, slice64 64 (by omega) y, slice64 128 (by omega) y, slice64 192 (by omega) y]

/-- The same sum over a loaded block, whose two leading unit axes the body drops first. -/
theorem block_sum_apply (x : Vec Ideal S1x1x512x256 .f32) (j : Fin 512) (d : Fin 64) :
    addf (F := Ideal) (φ := .f32) (addf (addf (extractStridedSlice S512x64 ![0, 0] (shapeCast S512x256 x Facts₀.shapeCasts_S1x1x512x256_S512x256) Facts₀.slices_S512x256_o0_0_S512x64)
        (extractStridedSlice S512x64 ![0, 64] (shapeCast S512x256 x Facts₀.shapeCasts_S1x1x512x256_S512x256) Facts₀.slices_S512x256_o0_64_S512x64))
        (extractStridedSlice S512x64 ![0, 128] (shapeCast S512x256 x Facts₀.shapeCasts_S1x1x512x256_S512x256) Facts₀.slices_S512x256_o0_128_S512x64))
        (extractStridedSlice S512x64 ![0, 192] (shapeCast S512x256 x Facts₀.shapeCasts_S1x1x512x256_S512x256) Facts₀.slices_S512x256_o0_192_S512x64) (ix2 j d)
      = flat4 x j d := by
  refine (slices_sum_apply (shapeCast S512x256 x Facts₀.shapeCasts_S1x1x512x256_S512x256) j d).trans ?_
  unfold flat4
  rw [drop2_256 x, drop2_256 x, drop2_256 x, drop2_256 x]

/-- The replica sum the body forms from the loaded value block. -/
theorem replica_sum_apply (x : Vec Ideal S1x1x512x256 .f32) (j : Fin 512) (d : Fin 64) :
    k0_pay4 (F := Ideal) x (ix2 j d) = flat4 x j d := by
  unfold k0_pay4
  exact block_sum_apply x j d

/-! ## The two matrix products -/

/-- In the first product the left operand is read at the result's row … -/
theorem scores_lhs_row (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl

/-- … and the right operand at the result's column. -/
theorem scores_rhs_col (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

/-- The first matrix product at `(r, c)`: the sum over the 64 features. -/
theorem scores_apply (A : FVec Ideal S512x64 .bf16) (B : FVec Ideal S64x512 .bf16) (r c : Fin 512) :
    matmul (F := Ideal) dot_S512x64_S64x512_S512x512_1_0_0_1_n_n none A B (constant S512x512 .f32 0x00000000#32) (ix2 r c)
      = ∑ d : Fin 64, A (ix2 r d) * B (ix2 d c) := by
  simp only [matmul]
  rw [Ideal.matmul_constant_zero_apply, ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 r c) ((contrEquiv1 dot_S512x64_S64x512_S512x512_1_0_0_1_n_n 64 rfl rfl).symm k) = ix2 r k :=
    funext fun a => Fin.ext (by
      match a with
      | ⟨0, _⟩ => exact scores_lhs_row _ _
      | ⟨1, _⟩ => exact (dot_S512x64_S64x512_S512x512_1_0_0_1_n_n.lhsIdx_val_of_single rfl _ _).trans hk)
  have er : dot_S512x64_S64x512_S512x512_1_0_0_1_n_n.rhsIdx (ix2 r c) ((contrEquiv1 dot_S512x64_S64x512_S512x512_1_0_0_1_n_n 64 rfl rfl).symm k) = ix2 k c :=
    funext fun a => Fin.ext (by
      match a with
      | ⟨0, _⟩ => exact (dot_S512x64_S64x512_S512x512_1_0_0_1_n_n.rhsIdx_val_of_single rfl _ _).trans hk
      | ⟨1, _⟩ => exact scores_rhs_col _ _)
  rw [el, er]

/-- In the second product the left operand is read at the result's row … -/
theorem mix_lhs_row (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl

/-- … and the right operand at the result's column. -/
theorem mix_rhs_col (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-- The second matrix product at `(r, d)`: the sum over the 512 key rows. -/
theorem mix_apply (A : FVec Ideal S512x512 .bf16) (B : FVec Ideal S512x64 .bf16) (r : Fin 512) (d : Fin 64) :
    matmul (F := Ideal) dot_S512x512_S512x64_S512x64_1_0_0_1_n_n none A B (constant S512x64 .f32 0x00000000#32) (ix2 r d)
      = ∑ j : Fin 512, A (ix2 r j) * B (ix2 j d) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r d) ((contrEquiv1 dot_S512x512_S512x64_S512x64_1_0_0_1_n_n 512 rfl rfl).symm k) = ix2 r k :=
    funext fun a => Fin.ext (by
      match a with
      | ⟨0, _⟩ => exact mix_lhs_row _ _
      | ⟨1, _⟩ => exact (dot_S512x512_S512x64_S512x64_1_0_0_1_n_n.lhsIdx_val_of_single rfl _ _).trans hk)
  have er : dot_S512x512_S512x64_S512x64_1_0_0_1_n_n.rhsIdx (ix2 r d) ((contrEquiv1 dot_S512x512_S512x64_S512x64_1_0_0_1_n_n 512 rfl rfl).symm k) = ix2 k d :=
    funext fun a => Fin.ext (by
      match a with
      | ⟨0, _⟩ => exact (dot_S512x512_S512x64_S512x64_1_0_0_1_n_n.rhsIdx_val_of_single rfl _ _).trans hk
      | ⟨1, _⟩ => exact mix_rhs_col _ _)
  rw [el, er]

/-! ## The softmax -/

/-- The row maximum, made a column and broadcast along the row, is the row's maximum at every column. -/
theorem row_max_apply (v : FVec Ideal S512x512 .f32) (r c : Fin 512) :
    broadcastTo S512x512 (shapeCast S512x1 (multiReduction .maximumf [1] S512 v 0xFF800000#32 Facts₀.reduces_S512x512_S512 (.inl rfl) rfl)
      Facts₀.shapeCasts_S512_S512x1) Facts₀.broadcasts_S512x1_S512x512 (ix2 r c) = rowMax (fun c' => v (ix2 r c')) := by
  rw [column_broadcast]
  refine (Ideal.multiReduction_maximumf_single v 0xFF800000#32 Facts₀.reduces_S512x512_S512 (.inl rfl) rfl (ix1 r)).trans ?_
  unfold rowMax
  refine congrArg (fun f : Fin 512 → EReal => (Finset.univ : Finset (Fin 512)).fold max negInf f) (funext fun k => ?_)
  exact congrArg v (lift_row Facts₀.reduces_S512x512_S512 r k)

/-- The row sum, made a column and broadcast along the row, is the row's sum at every column. -/
theorem row_sum_apply (e : FVec Ideal S512x512 .f32) (r c : Fin 512) :
    broadcastTo S512x512 (shapeCast S512x1 (multiReduction .add [1] S512 e 0x00000000#32 Facts₀.reduces_S512x512_S512 (.inl rfl) rfl)
      Facts₀.shapeCasts_S512_S512x1) Facts₀.broadcasts_S512x1_S512x512 (ix2 r c) = ∑ c' : Fin 512, e (ix2 r c') := by
  rw [column_broadcast]
  refine (Ideal.multiReduction_add_single e 0x00000000#32 Facts₀.reduces_S512x512_S512 (.inl rfl) rfl (ix1 r)).trans ?_
  refine Finset.sum_congr rfl fun k _ => ?_
  exact congrArg e (lift_row Facts₀.reduces_S512x512_S512 r k)

/-- The probabilities the body forms from the logits: the softmax of row `r` at column `c`. -/
theorem softmax_apply (v : FVec Ideal S512x512 .f32) (r c : Fin 512) :
    k0_pay1 (F := Ideal) v (ix2 r c) = softmax (fun c' => v (ix2 r c')) c := by
  unfold k0_pay1
  show Ideal.div (Ideal.exp (v (ix2 r c) - _)) _ = _
  rw [row_max_apply v r c, row_sum_apply _ r c]
  unfold softmax
  refine congrArg (Ideal.div _) (Finset.sum_congr rfl fun c' _ => ?_)
  show Ideal.exp (v (ix2 r c') - _) = _
  rw [row_max_apply v r c']

/-! ## The three stored or carried values -/

/-- The logits at `(r, c)`. -/
theorem logit_apply (x0 : Vec Ideal S1x1x512x64 .f32) (x1 : Vec Ideal S1x1x512x256 .f32) (x3 : Vec Ideal S1x512x512 .f32)
    (x4 : Vec Ideal S1x512x512 .i32) (r c : Fin 512) :
    k0_pay5 (F := Ideal) x0 x1 x3 x4 (ix2 r c)
      = Scalar.select (IntOp.cmpi .ne (x4 (ix3 0 r c)) 0#32) fill
          ((∑ d : Fin 64, (x0 (ix4 0 0 r d) * eighth) * flat4 x1 c d) * x3 (ix3 0 r c)) := by
  unfold k0_pay5
  show Scalar.select (IntOp.cmpi .ne (shapeCast S512x512 x4 Facts₀.shapeCasts_S1x512x512_S512x512 (ix2 r c)) 0#32) fill
    (matmul (F := Ideal) dot_S512x64_S64x512_S512x512_1_0_0_1_n_n none _ _ (constant S512x512 .f32 0x00000000#32) (ix2 r c)
      * shapeCast S512x512 x3 Facts₀.shapeCasts_S1x512x512_S512x512 (ix2 r c)) = _
  rw [drop1_512 x4, drop1_512 x3, scores_apply]
  refine congrArg (fun s => Scalar.select (IntOp.cmpi .ne (x4 (ix3 0 r c)) 0#32) fill (s * x3 (ix3 0 r c))) (Finset.sum_congr rfl fun d _ => ?_)
  rw [transpose64]
  refine congrArg₂ (· * ·) ?_ (block_sum_apply x1 c d)
  show shapeCast S512x64 x0 Facts₀.shapeCasts_S1x1x512x64_S512x64 (ix2 r d) * eighth = _
  rw [drop2_64 x0]

/-- The stored probabilities: the leading unit axes are added back. -/
theorem attn_apply (v34 : FVec Ideal S512x512 .f32) (u w : Fin 1) (r c : Fin 512) :
    k0_pay2 (F := Ideal) v34 (ix4 u w r c) = k0_pay1 (F := Ideal) v34 (ix2 r c) := by
  unfold k0_pay2
  exact add2_512 _ _ u w r c

/-- The stored output: the probabilities times the value sums, the leading unit axes added back. -/
theorem out_apply (v24 : FVec Ideal S512x64 .bf16) (v34 : FVec Ideal S512x512 .f32) (u w : Fin 1) (r : Fin 512) (d : Fin 64) :
    k0_pay3 (F := Ideal) v24 v34 (ix4 u w r d) = ∑ j : Fin 512, k0_pay1 (F := Ideal) v34 (ix2 r j) * v24 (ix2 j d) := by
  unfold k0_pay3
  refine (add2_64 _ _ u w r d).trans ?_
  exact mix_apply _ _ r d

/-! ## One grid point, from what its blocks hold

If the loaded blocks hold a head's queries, replica-summed keys and values, weights and mask, the two stored values are
that head's probabilities and outputs. -/

theorem head_attn (x0 : Vec Ideal S1x1x512x64 .f32) (x1 : Vec Ideal S1x1x512x256 .f32) (x3 : Vec Ideal S1x512x512 .f32)
    (x4 : Vec Ideal S1x512x512 .i32) (q ks : Fin 512 → Fin 64 → EReal) (w : Fin 512 → Fin 512 → EReal)
    (mk : Fin 512 → Fin 512 → BitVec 1)
    (h0 : ∀ r d, x0 (ix4 0 0 r d) = q r d) (h1 : ∀ j d, flat4 x1 j d = ks j d)
    (h3 : ∀ r c, x3 (ix3 0 r c) = w r c) (h4 : ∀ r c, IntOp.cmpi .ne (x4 (ix3 0 r c)) 0#32 = mk r c)
    (r c : Fin 512) :
    k0_pay1 (F := Ideal) (k0_pay5 x0 x1 x3 x4) (ix2 r c) = attnH q ks w mk r c := by
  rw [softmax_apply]
  unfold attnH
  refine congrArg (fun row => softmax row c) (funext fun c' => ?_)
  rw [logit_apply, h3, h4]
  unfold logit
  refine congrArg (fun s => Scalar.select (mk r c') fill (s * w r c')) (Finset.sum_congr rfl fun d _ => ?_)
  rw [h0, h1]

theorem point_attn (x0 : Vec Ideal S1x1x512x64 .f32) (x1 : Vec Ideal S1x1x512x256 .f32) (x3 : Vec Ideal S1x512x512 .f32)
    (x4 : Vec Ideal S1x512x512 .i32) (q ks : Fin 512 → Fin 64 → EReal) (w : Fin 512 → Fin 512 → EReal)
    (mk : Fin 512 → Fin 512 → BitVec 1)
    (h0 : ∀ r d, x0 (ix4 0 0 r d) = q r d) (h1 : ∀ j d, flat4 x1 j d = ks j d)
    (h3 : ∀ r c, x3 (ix3 0 r c) = w r c) (h4 : ∀ r c, IntOp.cmpi .ne (x4 (ix3 0 r c)) 0#32 = mk r c)
    (u v : Fin 1) (r c : Fin 512) :
    k0_pay2 (F := Ideal) (k0_pay5 x0 x1 x3 x4) (ix4 u v r c) = attnH q ks w mk r c :=
  (attn_apply _ u v r c).trans (head_attn x0 x1 x3 x4 q ks w mk h0 h1 h3 h4 r c)

theorem point_out (x0 : Vec Ideal S1x1x512x64 .f32) (x1 x2 : Vec Ideal S1x1x512x256 .f32) (x3 : Vec Ideal S1x512x512 .f32)
    (x4 : Vec Ideal S1x512x512 .i32) (q ks vs : Fin 512 → Fin 64 → EReal) (w : Fin 512 → Fin 512 → EReal)
    (mk : Fin 512 → Fin 512 → BitVec 1)
    (h0 : ∀ r d, x0 (ix4 0 0 r d) = q r d) (h1 : ∀ j d, flat4 x1 j d = ks j d) (h2 : ∀ j d, flat4 x2 j d = vs j d)
    (h3 : ∀ r c, x3 (ix3 0 r c) = w r c) (h4 : ∀ r c, IntOp.cmpi .ne (x4 (ix3 0 r c)) 0#32 = mk r c)
    (u v : Fin 1) (r : Fin 512) (d : Fin 64) :
    k0_pay3 (F := Ideal) (k0_pay4 x2) (k0_pay5 x0 x1 x3 x4) (ix4 u v r d) = outH q ks vs w mk r d := by
  rw [out_apply]
  unfold outH
  refine Finset.sum_congr rfl fun j _ => ?_
  rw [head_attn x0 x1 x3 x4 q ks w mk h0 h1 h3 h4 r j, replica_sum_apply, h2]

end Cert.KernelIdeal.Pay

end
-- ==== Proof.KernelArrays.lean ====
/-
  The arrays the kernel is launched on, and where each block of a grid point sits in them.

  Before the launch the host drops the unit axes of the queries and keys, merges the replica and feature axes of keys
  and values into one 256-wide axis, drops the mask's unit axis and widens its bits to 32-bit words. Grid point `t` is
  one head `(b, h)`: every 4-axis window's block index at `t` is `(b, h, 0, 0)`, every 3-axis window's `(b, 0, 0)`, so an
  element of a block sits at the same row and column of head `(b, h)` (or batch entry `b`) in its array.
-/
import proofs.«150136_j70858370449467_2_alg».proof.Proof.Gen.KernelIdeal.Value
import proofs.«150136_j70858370449467_2_alg».proof.Proof.Payload
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Attn Cert.Attn.Layout Cert.KernelIdeal.Pay
open Idealize.ShloMosaic.Pipeline (Dat)

variable (m : (ℓ : Loc nD τ sig) → Buf (Elt Ideal) ℓ) (ρ : Dev nD → PrngReg)

/-! ## The arrays the kernel is launched on -/

/-- The queries with their two unit axes dropped. -/
abbrev Qarr (c : Dev nD) : S8x8x512x64.Idx → EReal :=
  shapeCast S8x8x512x64 (m ((c : Thread nD τ).loc main_arg0)) Facts₀.shapeCasts_S8x8x512x1x1x64_S8x8x512x64
/-- The keys with their unit axis dropped. -/
abbrev Karr (c : Dev nD) : S8x8x512x4x64.Idx → EReal :=
  shapeCast S8x8x512x4x64 (m ((c : Thread nD τ).loc main_arg1)) Facts₀.shapeCasts_S8x8x1x512x4x64_S8x8x512x4x64

theorem V_q (c : Dev nD) : (V m c main_v0 : S8x8x512x64.Idx → EReal) = Qarr m c := by
  dsimp only [Gen.V, Gen.hostOps0]; after_results; rfl

theorem V_k (c : Dev nD) : (V m c main_v2 : S8x8x512x256.Idx → EReal)
    = shapeCast S8x8x512x256 (Karr m c) Facts₀.shapeCasts_S8x8x512x4x64_S8x8x512x256 := by
  dsimp only [Gen.V, Gen.hostOps0]; after_results; rfl

theorem V_v (c : Dev nD) : (V m c main_v3 : S8x8x512x256.Idx → EReal)
    = shapeCast S8x8x512x256 (m ((c : Thread nD τ).loc main_arg2)) Facts₀.shapeCasts_S8x8x512x4x64_S8x8x512x256 := by
  dsimp only [Gen.V, Gen.hostOps0]; after_results; rfl

theorem V_mask (c : Dev nD) : (V m c main_v5 : S8x512x512.Idx → BitVec 32)
    = extui 32 (shapeCast S8x512x512 (m ((c : Thread nD τ).loc main_arg4)) Facts₀.shapeCasts_S8x1x512x512_S8x512x512) Facts₀.natLt_1_32 := by
  dsimp only [Gen.V, Gen.hostOps0]; after_results; rfl

/-! ## The printed index maps, decided over the 64 grid points -/

theorem idx6 : ∀ t : Fin cfg0.N, win0_6.index t (0 : Fin 4) < 8 ∧ win0_6.index t (1 : Fin 4) < 8
    ∧ win0_6.index t (2 : Fin 4) = 0 ∧ win0_6.index t (3 : Fin 4) = 0 :=
  (by decide +kernel : ∀ t : Fin grid0.N, _)

theorem idx5 : ∀ t : Fin cfg0.N, win0_5.index t (0 : Fin 4) = win0_6.index t (0 : Fin 4) ∧ win0_5.index t (1 : Fin 4) = win0_6.index t (1 : Fin 4)
    ∧ win0_5.index t (2 : Fin 4) = 0 ∧ win0_5.index t (3 : Fin 4) = 0 :=
  (by decide +kernel : ∀ t : Fin grid0.N, _)

theorem idx0 : ∀ t : Fin cfg0.N, win0_0.index t (0 : Fin 4) = win0_6.index t (0 : Fin 4) ∧ win0_0.index t (1 : Fin 4) = win0_6.index t (1 : Fin 4)
    ∧ win0_0.index t (2 : Fin 4) = 0 ∧ win0_0.index t (3 : Fin 4) = 0 :=
  (by decide +kernel : ∀ t : Fin grid0.N, _)

theorem idx1 : ∀ t : Fin cfg0.N, win0_1.index t (0 : Fin 4) = win0_6.index t (0 : Fin 4) ∧ win0_1.index t (1 : Fin 4) = win0_6.index t (1 : Fin 4)
    ∧ win0_1.index t (2 : Fin 4) = 0 ∧ win0_1.index t (3 : Fin 4) = 0 :=
  (by decide +kernel : ∀ t : Fin grid0.N, _)

theorem idx2 : ∀ t : Fin cfg0.N, win0_2.index t (0 : Fin 4) = win0_6.index t (0 : Fin 4) ∧ win0_2.index t (1 : Fin 4) = win0_6.index t (1 : Fin 4)
    ∧ win0_2.index t (2 : Fin 4) = 0 ∧ win0_2.index t (3 : Fin 4) = 0 :=
  (by decide +kernel : ∀ t : Fin grid0.N, _)

theorem idx3 : ∀ t : Fin cfg0.N, win0_3.index t (0 : Fin 3) = win0_6.index t (0 : Fin 4)
    ∧ win0_3.index t (1 : Fin 3) = 0 ∧ win0_3.index t (2 : Fin 3) = 0 :=
  (by decide +kernel : ∀ t : Fin grid0.N, _)

theorem idx4 : ∀ t : Fin cfg0.N, win0_4.index t (0 : Fin 3) = win0_6.index t (0 : Fin 4)
    ∧ win0_4.index t (1 : Fin 3) = 0 ∧ win0_4.index t (2 : Fin 3) = 0 :=
  (by decide +kernel : ∀ t : Fin grid0.N, _)

/-- Every head is some grid point's. -/
theorem idx_onto : ∀ (b h : Fin 8), ∃ t : Fin cfg0.N, win0_6.index t (0 : Fin 4) = b.val ∧ win0_6.index t (1 : Fin 4) = h.val :=
  (by decide +kernel : ∀ (b h : Fin 8), ∃ t : Fin grid0.N, win0_6.index t (0 : Fin 4) = b.val ∧ win0_6.index t (1 : Fin 4) = h.val)

/-- The batch entry of grid point `t`. -/
def bOf (t : Fin cfg0.N) : Fin 8 := ⟨win0_6.index t (0 : Fin 4), (idx6 t).1⟩
/-- The head of grid point `t`. -/
def hOf (t : Fin cfg0.N) : Fin 8 := ⟨win0_6.index t (1 : Fin 4), (idx6 t).2.1⟩

/-! ## Where a block's element sits in its array -/

theorem emb0 (t : Fin cfg0.N) (u v : Fin 1) (r : Fin 512) (d : Fin 64) :
    ((cfg0.win 0).blk t).view.emb (ix4 u v r d) = ix4 (bOf t) (hOf t) r d := by
  obtain ⟨e0, e1, e2, e3⟩ := idx0 t
  funext a; apply Fin.ext
  match a with
  | ⟨0, _⟩ => show win0_0.index t (0 : Fin 4) * 1 + 1 * u.val = win0_6.index t (0 : Fin 4); have := u.isLt; omega
  | ⟨1, _⟩ => show win0_0.index t (1 : Fin 4) * 1 + 1 * v.val = win0_6.index t (1 : Fin 4); have := v.isLt; omega
  | ⟨2, _⟩ => show win0_0.index t (2 : Fin 4) * 512 + 1 * r.val = r.val; omega
  | ⟨3, _⟩ => show win0_0.index t (3 : Fin 4) * 64 + 1 * d.val = d.val; omega

theorem emb1 (t : Fin cfg0.N) (u v : Fin 1) (r : Fin 512) (e : Fin 256) :
    ((cfg0.win 1).blk t).view.emb (ix4 u v r e) = ix4 (bOf t) (hOf t) r e := by
  obtain ⟨e0, e1, e2, e3⟩ := idx1 t
  funext a; apply Fin.ext
  match a with
  | ⟨0, _⟩ => show win0_1.index t (0 : Fin 4) * 1 + 1 * u.val = win0_6.index t (0 : Fin 4); have := u.isLt; omega
  | ⟨1, _⟩ => show win0_1.index t (1 : Fin 4) * 1 + 1 * v.val = win0_6.index t (1 : Fin 4); have := v.isLt; omega
  | ⟨2, _⟩ => show win0_1.index t (2 : Fin 4) * 512 + 1 * r.val = r.val; omega
  | ⟨3, _⟩ => show win0_1.index t (3 : Fin 4) * 256 + 1 * e.val = e.val; omega

theorem emb2 (t : Fin cfg0.N) (u v : Fin 1) (r : Fin 512) (e : Fin 256) :
    ((cfg0.win 2).blk t).view.emb (ix4 u v r e) = ix4 (bOf t) (hOf t) r e := by
  obtain ⟨e0, e1, e2, e3⟩ := idx2 t
  funext a; apply Fin.ext
  match a with
  | ⟨0, _⟩ => show win0_2.index t (0 : Fin 4) * 1 + 1 * u.val = win0_6.index t (0 : Fin 4); have := u.isLt; omega
  | ⟨1, _⟩ => show win0_2.index t (1 : Fin 4) * 1 + 1 * v.val = win0_6.index t (1 : Fin 4); have := v.isLt; omega
  | ⟨2, _⟩ => show win0_2.index t (2 : Fin 4) * 512 + 1 * r.val = r.val; omega
  | ⟨3, _⟩ => show win0_2.index t (3 : Fin 4) * 256 + 1 * e.val = e.val; omega

theorem emb3 (t : Fin cfg0.N) (u : Fin 1) (r c : Fin 512) :
    ((cfg0.win 3).blk t).view.emb (ix3 u r c) = ix3 (bOf t) r c := by
  obtain ⟨e0, e1, e2⟩ := idx3 t
  funext a; apply Fin.ext
  match a with
  | ⟨0, _⟩ => show win0_3.index t (0 : Fin 3) * 1 + 1 * u.val = win0_6.index t (0 : Fin 4); have := u.isLt; omega
  | ⟨1, _⟩ => show win0_3.index t (1 : Fin 3) * 512 + 1 * r.val = r.val; omega
  | ⟨2, _⟩ => show win0_3.index t (2 : Fin 3) * 512 + 1 * c.val = c.val; omega

theorem emb4 (t : Fin cfg0.N) (u : Fin 1) (r c : Fin 512) :
    ((cfg0.win 4).blk t).view.emb (ix3 u r c) = ix3 (bOf t) r c := by
  obtain ⟨e0, e1, e2⟩ := idx4 t
  funext a; apply Fin.ext
  match a with
  | ⟨0, _⟩ => show win0_4.index t (0 : Fin 3) * 1 + 1 * u.val = win0_6.index t (0 : Fin 4); have := u.isLt; omega
  | ⟨1, _⟩ => show win0_4.index t (1 : Fin 3) * 512 + 1 * r.val = r.val; omega
  | ⟨2, _⟩ => show win0_4.index t (2 : Fin 3) * 512 + 1 * c.val = c.val; omega

theorem emb5 (t : Fin cfg0.N) (u v : Fin 1) (r : Fin 512) (d : Fin 64) :
    ((cfg0.win 5).blk t).view.emb (ix4 u v r d) = ix4 (bOf t) (hOf t) r d := by
  obtain ⟨e0, e1, e2, e3⟩ := idx5 t
  funext a; apply Fin.ext
  match a with
  | ⟨0, _⟩ => show win0_5.index t (0 : Fin 4) * 1 + 1 * u.val = win0_6.index t (0 : Fin 4); have := u.isLt; omega
  | ⟨1, _⟩ => show win0_5.index t (1 : Fin 4) * 1 + 1 * v.val = win0_6.index t (1 : Fin 4); have := v.isLt; omega
  | ⟨2, _⟩ => show win0_5.index t (2 : Fin 4) * 512 + 1 * r.val = r.val; omega
  | ⟨3, _⟩ => show win0_5.index t (3 : Fin 4) * 64 + 1 * d.val = d.val; omega

theorem emb6 (t : Fin cfg0.N) (u v : Fin 1) (r c : Fin 512) :
    ((cfg0.win 6).blk t).view.emb (ix4 u v r c) = ix4 (bOf t) (hOf t) r c := by
  obtain ⟨e0, e1, e2, e3⟩ := idx6 t
  funext a; apply Fin.ext
  match a with
  | ⟨0, _⟩ => show win0_6.index t (0 : Fin 4) * 1 + 1 * u.val = win0_6.index t (0 : Fin 4); have := u.isLt; omega
  | ⟨1, _⟩ => show win0_6.index t (1 : Fin 4) * 1 + 1 * v.val = win0_6.index t (1 : Fin 4); have := v.isLt; omega
  | ⟨2, _⟩ => show win0_6.index t (2 : Fin 4) * 512 + 1 * r.val = r.val; omega
  | ⟨3, _⟩ => show win0_6.index t (3 : Fin 4) * 512 + 1 * c.val = c.val; omega

end Cert.KernelIdeal.Whole

end
-- ==== Proof.KernelValue.lean ====
/-
  The kernel's two result arrays as the head-by-head specification of the argument arrays.

  Grid point `t` is one head `(b, h)`. Its query, key and value blocks are the rows of that head in the re-laid
  arrays (the host merges the replica and feature axes of keys and values into one 256-wide axis, so replica `r'` of
  feature `d` sits at column `r' · 64 + d`); its weight and mask blocks are those of batch entry `b` (the host widens
  the one-bit mask to 32-bit words, non-zero exactly where the bit is set). So what the point writes back is block
  `(b, h)` of the specification, and the 64 blocks tile both result arrays.
-/
import proofs.«150136_j70858370449467_2_alg».proof.Proof.KernelArrays

noncomputable section

namespace Cert.KernelIdeal.Whole

open Cert.KernelIdeal Cert.KernelIdeal.Gen Idealize.ShloMosaic Idealize.ShloMosaic.TcCoe Idealize.SL.Sem
open Idealize.ShloMosaic.ValueIdx Cert.Attn Cert.Attn.Layout Cert.KernelIdeal.Pay
open Idealize.ShloMosaic.Pipeline (Dat)

variable (m : (ℓ : Loc nD τ sig) → Buf (Elt Ideal) ℓ) (ρ : Dev nD → PrngReg)

/-! ## What the blocks of grid point `t` hold -/

theorem read_q (c : Dev nD) (t : Fin cfg0.N) (r : Fin 512) (d : Fin 64) :
    iblk m c 0 t (ix4 0 0 r d) = qHead (Qarr m c) (bOf t) (hOf t) r d := by
  show V m c main_v0 (((cfg0.win 0).blk t).view.emb (ix4 0 0 r d)) = _
  rw [emb0, V_q]
  rfl

/-- The key window's array, named as the window names it. -/
theorem V_k' (c : Dev nD) : (V m c (Pipeline.arrRef spec0 1) : S8x8x512x256.Idx → EReal)
    = shapeCast S8x8x512x256 (Karr m c) Facts₀.shapeCasts_S8x8x512x4x64_S8x8x512x256 := V_k m c

/-- The value window's array, named as the window names it. -/
theorem V_v' (c : Dev nD) : (V m c (Pipeline.arrRef spec0 2) : S8x8x512x256.Idx → EReal)
    = shapeCast S8x8x512x256 (m ((c : Thread nD τ).loc main_arg2)) Facts₀.shapeCasts_S8x8x512x4x64_S8x8x512x256 := V_v m c

/-- A block of the key window reads any array at the block's elements' places. -/
theorem read_blk1 (G : S8x8x512x256.Idx → EReal) (t : Fin cfg0.N) (y : S1x1x512x256.Idx) :
    ((cfg0.win 1).blk t).view.read (Elt Ideal) G y = G (((cfg0.win 1).blk t).view.emb y) := rfl

/-- A block of the value window likewise. -/
theorem read_blk2 (G : S8x8x512x256.Idx → EReal) (t : Fin cfg0.N) (y : S1x1x512x256.Idx) :
    ((cfg0.win 2).blk t).view.read (Elt Ideal) G y = G (((cfg0.win 2).blk t).view.emb y) := rfl

theorem read_k_elem (c : Dev nD) (t : Fin cfg0.N) (j : Fin 512) (r' : Fin 4) (d : Fin 64) (e : Fin 256)
    (he : e.val = r'.val * 64 + d.val) :
    iblk m c 1 t (ix4 0 0 j e) = Karr m c (ix5 (bOf t) (hOf t) j r' d) := by
  unfold iblk
  rw [V_k' m c, read_blk1, emb1]
  exact merge_replicas _ _ (bOf t) (hOf t) j r' d e he

theorem read_k (c : Dev nD) (t : Fin cfg0.N) (j : Fin 512) (d : Fin 64) :
    flat4 (iblk m c 1 t) j d = kHead (Karr m c) (bOf t) (hOf t) j d := by
  unfold flat4 kHead sum4
  rw [read_k_elem m c t j 0 d _ (by simp), read_k_elem m c t j 1 d _ (by simp), read_k_elem m c t j 2 d _ (by simp),
    read_k_elem m c t j 3 d _ (by simp)]

theorem read_v_elem (c : Dev nD) (t : Fin cfg0.N) (j : Fin 512) (r' : Fin 4) (d : Fin 64) (e : Fin 256)
    (he : e.val = r'.val * 64 + d.val) :
    iblk m c 2 t (ix4 0 0 j e) = m ((c : Thread nD τ).loc main_arg2) (ix5 (bOf t) (hOf t) j r' d) := by
  unfold iblk
  rw [V_v' m c, read_blk2, emb2]
  exact merge_replicas _ _ (bOf t) (hOf t) j r' d e he

theorem read_v (c : Dev nD) (t : Fin cfg0.N) (j : Fin 512) (d : Fin 64) :
    flat4 (iblk m c 2 t) j d = kHead (m ((c : Thread nD τ).loc main_arg2)) (bOf t) (hOf t) j d := by
  unfold flat4 kHead sum4
  rw [read_v_elem m c t j 0 d _ (by simp), read_v_elem m c t j 1 d _ (by simp), read_v_elem m c t j 2 d _ (by simp),
    read_v_elem m c t j 3 d _ (by simp)]

theorem read_w (c : Dev nD) (t : Fin cfg0.N) (r cc : Fin 512) :
    iblk m c 3 t (ix3 0 r cc) = wHead (m ((c : Thread nD τ).loc main_arg3)) (bOf t) r cc := by
  show V m c main_arg3 (((cfg0.win 3).blk t).view.emb (ix3 0 r cc)) = _
  rw [emb3, V_main_arg3]
  rfl

theorem read_m (c : Dev nD) (t : Fin cfg0.N) (r cc : Fin 512) :
    IntOp.cmpi .ne (iblk m c 4 t (ix3 0 r cc)) 0#32 = mHead (m ((c : Thread nD τ).loc main_arg4)) (bOf t) r cc := by
  show IntOp.cmpi .ne (V m c main_v5 (((cfg0.win 4).blk t).view.emb (ix3 0 r cc))) 0#32 = _
  rw [emb4, V_mask]
  show IntOp.cmpi .ne ((shapeCast S8x512x512 (m ((c : Thread nD τ).loc main_arg4)) Facts₀.shapeCasts_S8x1x512x512_S8x512x512 (ix3 (bOf t) r cc)).setWidth 32) 0#32 = _
  rw [squeeze_mask, ne_zero_widen]
  rfl

/-! ## What each grid point writes back -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The probabilities, all heads, of the argument arrays of core `c`. -/
abbrev attnOf (c : Dev nD) : S8x8x512x512.Idx → EReal :=
  attnAll (Qarr m c) (Karr m c) (m ((c : Thread nD τ).loc main_arg3)) (m ((c : Thread nD τ).loc main_arg4))
/-- The outputs, all heads, of the argument arrays of core `c`. -/
abbrev outOf (c : Dev nD) : S8x8x512x64.Idx → EReal :=
  outAll (Qarr m c) (Karr m c) (m ((c : Thread nD τ).loc main_arg2)) (m ((c : Thread nD τ).loc main_arg3)) (m ((c : Thread nD τ).loc main_arg4))

theorem flushed_attn (c : Dev nD) (t : Fin cfg0.N) :
    (dats m 0 c).flushed 6 t = ((cfg0.win 6).blk t).view.read (Elt Ideal) (attnOf m c) := by
  rw [Value.flushed6]
  unfold out0_6
  rw [View.canon_unit_zero hz4]
  simp only [View.ld_unit_zero (S := S1x1x512x64) hz4, View.ld_unit_zero (S := S1x1x512x256) hz4, View.ld_unit_zero (S := S1x512x512) hz3]
  funext y
  obtain ⟨u, v, r, cc, rfl⟩ : ∃ (u v : Fin 1) (r cc : Fin 512), y = ix4 u v r cc := ⟨y 0, y 1, y 2, y 3, eq_ix4 y⟩
  show k0_pay2 (F := Ideal) (k0_pay5 (iblk m c 0 t) (iblk m c 1 t) (iblk m c 3 t) (iblk m c 4 t)) (ix4 u v r cc)
    = attnOf m c (((cfg0.win 6).blk t).view.emb (ix4 u v r cc))
  rw [emb6]
  exact (point_attn (iblk m c 0 t) (iblk m c 1 t) (iblk m c 3 t) (iblk m c 4 t)
    (qHead (Qarr m c) (bOf t) (hOf t)) (kHead (Karr m c) (bOf t) (hOf t))
    (wHead (m ((c : Thread nD τ).loc main_arg3)) (bOf t)) (mHead (m ((c : Thread nD τ).loc main_arg4)) (bOf t))
    (read_q m c t) (read_k m c t) (read_w m c t) (read_m m c t) u v r cc).trans
    (attnAll_ix (Qarr m c) (Karr m c) (m ((c : Thread nD τ).loc main_arg3)) (m ((c : Thread nD τ).loc main_arg4)) (bOf t) (hOf t) r cc).symm

theorem flushed_out (c : Dev nD) (t : Fin cfg0.N) :
    (dats m 0 c).flushed 5 t = ((cfg0.win 5).blk t).view.read (Elt Ideal) (outOf m c) := by
  rw [Value.flushed5]
  unfold out0_5
  rw [View.canon_unit_zero hz4]
  simp only [View.ld_unit_zero (S := S1x1x512x64) hz4, View.ld_unit_zero (S := S1x1x512x256) hz4, View.ld_unit_zero (S := S1x512x512) hz3]
  funext y
  obtain ⟨u, v, r, d, rfl⟩ : ∃ (u v : Fin 1) (r : Fin 512) (d : Fin 64), y = ix4 u v r d := ⟨y 0, y 1, y 2, y 3, eq_ix4 y⟩
  show k0_pay3 (F := Ideal) (k0_pay4 (iblk m c 2 t)) (k0_pay5 (iblk m c 0 t) (iblk m c 1 t) (iblk m c 3 t) (iblk m c 4 t)) (ix4 u v r d)
    = outOf m c (((cfg0.win 5).blk t).view.emb (ix4 u v r d))
  rw [emb5]
  exact (point_out (iblk m c 0 t) (iblk m c 1 t) (iblk m c 2 t) (iblk m c 3 t) (iblk m c 4 t)
    (qHead (Qarr m c) (bOf t) (hOf t)) (kHead (Karr m c) (bOf t) (hOf t)) (kHead (m ((c : Thread nD τ).loc main_arg2)) (bOf t) (hOf t))
    (wHead (m ((c : Thread nD τ).loc main_arg3)) (bOf t)) (mHead (m ((c : Thread nD τ).loc main_arg4)) (bOf t))
    (read_q m c t) (read_k m c t) (read_v m c t) (read_w m c t) (read_m m c t) u v r d).trans
    (outAll_ix (Qarr m c) (Karr m c) (m ((c : Thread nD τ).loc main_arg2)) (m ((c : Thread nD τ).loc main_arg3)) (m ((c : Thread nD τ).loc main_arg4)) (bOf t) (hOf t) r d).symm

/-! ## The 64 blocks tile both result arrays -/

theorem mem_blk6 (t : Fin cfg0.N) (i : S8x8x512x512.Idx) :
    i ∈ ((cfg0.win 6).blk t).view.set ↔ ∀ a : Fin 4, win0_6.index t a * S1x1x512x512.size a ≤ (i a).val ∧ (i a).val < win0_6.index t a * S1x1x512x512.size a + S1x1x512x512.size a := by
  show i ∈ ((View.whole main_v6_1).slice (win0_6.rect t)).set ↔ _
  rw [View.set_slice_whole, Rect.mem_set_unit]
  exact Iff.rfl

theorem mem_blk5 (t : Fin cfg0.N) (i : S8x8x512x64.Idx) :
    i ∈ ((cfg0.win 5).blk t).view.set ↔ ∀ a : Fin 4, win0_5.index t a * S1x1x512x64.size a ≤ (i a).val ∧ (i a).val < win0_5.index t a * S1x1x512x64.size a + S1x1x512x64.size a := by
  show i ∈ ((View.whole main_v6_0).slice (win0_5.rect t)).set ↔ _
  rw [View.set_slice_whole, Rect.mem_set_unit]
  exact Iff.rfl

theorem cover6 (i : S8x8x512x512.Idx) : ∃ t : Fin cfg0.N, (cfg0.win 6).flush t = true ∧ i ∈ ((cfg0.win 6).blk t).view.set := by
  obtain ⟨t, q0, q1⟩ := idx_onto ⟨(i 0).val, (i 0).isLt⟩ ⟨(i 1).val, (i 1).isLt⟩
  obtain ⟨e0, e1, e2, e3⟩ := idx6 t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; simp only at q0; omega
  | ⟨1, _⟩ => show win0_6.index t (1 : Fin 4) * 1 ≤ (i 1).val ∧ (i 1).val < win0_6.index t (1 : Fin 4) * 1 + 1; simp only at q1; omega
  | ⟨2, _⟩ => show win0_6.index t (2 : Fin 4) * 512 ≤ (i 2).val ∧ (i 2).val < win0_6.index t (2 : Fin 4) * 512 + 512; have : (i 2).val < 512 := (i 2).isLt; omega
  | ⟨3, _⟩ => show win0_6.index t (3 : Fin 4) * 512 ≤ (i 3).val ∧ (i 3).val < win0_6.index t (3 : Fin 4) * 512 + 512; have : (i 3).val < 512 := (i 3).isLt; omega

theorem cover5 (i : S8x8x512x64.Idx) : ∃ t : Fin cfg0.N, (cfg0.win 5).flush t = true ∧ i ∈ ((cfg0.win 5).blk t).view.set := by
  obtain ⟨t, q0, q1⟩ := idx_onto ⟨(i 0).val, (i 0).isLt⟩ ⟨(i 1).val, (i 1).isLt⟩
  obtain ⟨e0, e1, e2, e3⟩ := idx5 t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; simp only at q0; omega
  | ⟨1, _⟩ => show win0_5.index t (1 : Fin 4) * 1 ≤ (i 1).val ∧ (i 1).val < win0_5.index t (1 : Fin 4) * 1 + 1; simp only at q1; omega
  | ⟨2, _⟩ => show win0_5.index t (2 : Fin 4) * 512 ≤ (i 2).val ∧ (i 2).val < win0_5.index t (2 : Fin 4) * 512 + 512; have : (i 2).val < 512 := (i 2).isLt; omega
  | ⟨3, _⟩ => show win0_5.index t (3 : Fin 4) * 64 ≤ (i 3).val ∧ (i 3).val < win0_5.index t (3 : Fin 4) * 64 + 64; have : (i 3).val < 64 := (i 3).isLt; omega

/-! ## The run -/

theorem final_attn (c : Dev nD) : (dats m 0 c).arrAt 6 cfg0.N = attnOf m c :=
  (dats m 0 c).arrAt_eq_of_cover 6 (attnOf m c) (fun t _ => flushed_attn m c t) cover6

theorem final_out (c : Dev nD) : (dats m 0 c).arrAt 5 cfg0.N = outOf m c :=
  (dats m 0 c).arrAt_eq_of_cover 5 (outOf m c) (fun t _ => flushed_out m c t) cover5

/-- Every weakly fair execution of the kernel's program ends with the two result arrays at the specification of the
    argument arrays, and the arguments unchanged. -/
theorem run : θ_run defs (onTc (τ := τ) (main (F := Ideal))) ⟨m, fun _ => 0, ρ⟩ fun r => ∀ c : Dev nD,
      r.2.mem ((c : Thread nD τ).loc main_v6_0) = outOf m c
      ∧ r.2.mem ((c : Thread nD τ).loc main_v6_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m c), (h c).2.1.trans (final_attn m c), (h c).2.2⟩)
    (Value.run_blocks m ρ)

end Cert.KernelIdeal.Whole

end
-- ==== Proof.RefValue.lean ====
/-
  The reference program, stage by stage, at an index given by its coordinates `(b, h, r, c)`: each stage is the
  matching piece of the head-by-head specification. Three small laws are used on the way: dividing by `8` is
  multiplying by `0.125`; a replica sum started from zero is the left-associated sum; and the extra maximum with
  `-∞` that the reference's softmax takes changes nothing.
-/
import proofs.«150136_j70858370449467_2_alg».proof.Proof.Gen.ReferenceIdeal.Read
import proofs.«150136_j70858370449467_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn

variable (x0 : (⟨S8x8x512x1x1x64, .f32⟩ : BufTy).Contents (Elt Ideal)) (x1 : (⟨S8x8x1x512x4x64, .f32⟩ : BufTy).Contents (Elt Ideal))
  (x2 : (⟨S8x8x512x4x64, .f32⟩ : BufTy).Contents (Elt Ideal)) (x3 : (⟨S8x512x512, .f32⟩ : BufTy).Contents (Elt Ideal))
  (x4 : (⟨S8x1x512x512, .i1⟩ : BufTy).Contents (Elt Ideal))

/-! ## The composed index functions, at coordinates -/

theorem replica_idx (b h : Fin 8) (j : Fin 512) (d : Fin 64) (k : Fin 4) : idx_main_v4 (ix4 b h j d) k = ix5 b h j k d :=
  funext fun a => by match a with | ⟨0, _⟩ => rfl | ⟨1, _⟩ => rfl | ⟨2, _⟩ => rfl | ⟨3, _⟩ => rfl | ⟨4, _⟩ => rfl

theorem replica_idx' (b h : Fin 8) (j : Fin 512) (d : Fin 64) (k : Fin 4) : idx_main_v21 (ix4 b h j d) k = ix5 b h j k d :=
  funext fun a => by match a with | ⟨0, _⟩ => rfl | ⟨1, _⟩ => rfl | ⟨2, _⟩ => rfl | ⟨3, _⟩ => rfl | ⟨4, _⟩ => rfl

theorem score_lidx (b h : Fin 8) (r c : Fin 512) (d : Fin 64) : lidx_main_v5 (ix4 b h r c) d = ix4 b h r d :=
  funext fun a => by match a with | ⟨0, _⟩ => rfl | ⟨1, _⟩ => rfl | ⟨2, _⟩ => rfl | ⟨3, _⟩ => rfl

theorem score_ridx (b h : Fin 8) (r c : Fin 512) (d : Fin 64) : ridx_main_v5 (ix4 b h r c) d = ix4 b h c d :=
  funext fun a => by match a with | ⟨0, _⟩ => rfl | ⟨1, _⟩ => rfl | ⟨2, _⟩ => rfl | ⟨3, _⟩ => rfl

theorem weight_idx (b h : Fin 8) (r c : Fin 512) : idx_main_v6 (idx_main_v7 (ix4 b h r c)) = ix3 b r c :=
  funext fun a => by match a with | ⟨0, _⟩ => rfl | ⟨1, _⟩ => rfl | ⟨2, _⟩ => rfl

theorem mask_idx (b h : Fin 8) (r c : Fin 512) : idx_main_call0_v1 (ix4 b h r c) = ix4 b 0 r c :=
  funext fun a => by match a with | ⟨0, _⟩ => rfl | ⟨1, _⟩ => rfl | ⟨2, _⟩ => rfl | ⟨3, _⟩ => rfl

theorem max_col_idx (b h : Fin 8) (r c : Fin 512) : idx_main_v13 (idx_main_v14 (ix4 b h r c)) = ix3 b h r :=
  funext fun a => by match a with | ⟨0, _⟩ => rfl | ⟨1, _⟩ => rfl | ⟨2, _⟩ => rfl

theorem sum_col_idx (b h : Fin 8) (r c : Fin 512) : idx_main_v18 (idx_main_v19 (ix4 b h r c)) = ix3 b h r :=
  funext fun a => by match a with | ⟨0, _⟩ => rfl | ⟨1, _⟩ => rfl | ⟨2, _⟩ => rfl

theorem row_idx (b h : Fin 8) (r k : Fin 512) : idx_main_v17 (ix3 b h r) k = ix4 b h r k :=
  funext fun a => by match a with | ⟨0, _⟩ => rfl | ⟨1, _⟩ => rfl | ⟨2, _⟩ => rfl | ⟨3, _⟩ => rfl

theorem mix_lidx (b h : Fin 8) (r : Fin 512) (d : Fin 64) (k : Fin 512) : lidx_main_v22 (ix4 b h r d) k = ix4 b h r k :=
  funext fun a => by match a with | ⟨0, _⟩ => rfl | ⟨1, _⟩ => rfl | ⟨2, _⟩ => rfl | ⟨3, _⟩ => rfl

theorem mix_ridx (b h : Fin 8) (r : Fin 512) (d : Fin 64) (k : Fin 512) : ridx_main_v22 (ix4 b h r d) k = ix4 b h k d :=
  funext fun a => by match a with | ⟨0, _⟩ => rfl | ⟨1, _⟩ => rfl | ⟨2, _⟩ => rfl | ⟨3, _⟩ => rfl

/-! ## The stages -/

/-- The scaled queries. -/
theorem scaled_at (b h : Fin 8) (r : Fin 512) (d : Fin 64) :
    val_main_v3 (F := Ideal) x0 (ix4 b h r d) = qHead (val_main_v0 (F := Ideal) x0) b h r d * eighth := by
  rw [val_main_v3_apply, val_main_v2_apply, val_main_cst_apply]
  exact div_eight _

/-- The keys summed over the replicas. -/
theorem keysum_at (b h : Fin 8) (j : Fin 512) (d : Fin 64) :
    val_main_v4 (F := Ideal) x1 (ix4 b h j d) = kHead (val_main_v1 (F := Ideal) x1) b h j d := by
  rw [val_main_v4_apply, val_main_cst_0_apply]
  simp only [replica_idx]
  exact zero_add_sum4 _

/-- The values summed over the replicas. -/
theorem valsum_at (b h : Fin 8) (j : Fin 512) (d : Fin 64) :
    val_main_v21 (F := Ideal) x2 (ix4 b h j d) = kHead x2 b h j d := by
  rw [val_main_v21_apply, val_main_cst_5_apply]
  simp only [replica_idx']
  exact zero_add_sum4 _

/-- The masked, weighted scores. -/
theorem logit_at (b h : Fin 8) (r c : Fin 512) :
    val_main_v9 (F := Ideal) x0 x1 x3 x4 (ix4 b h r c)
      = logit (qHead (val_main_v0 (F := Ideal) x0) b h) (kHead (val_main_v1 (F := Ideal) x1) b h) (wHead x3 b) (mHead x4 b) r c := by
  rw [val_main_v9_apply, val_main_call0_v1_apply, mask_idx, val_main_call0_v2_apply, val_main_call0_v0_apply,
    val_main_cst_1_apply, val_main_v8_apply, val_main_v7_apply, val_main_v6_apply, weight_idx, val_main_v5_apply]
  unfold logit
  refine congrArg (fun s => Scalar.select (x4 (ix4 b 0 r c)) fill (s * x3 (ix3 b r c))) (Finset.sum_congr rfl fun d _ => ?_)
  rw [score_lidx, score_ridx, scaled_at, keysum_at]

/-- The row maxima as the reference folds them. -/
theorem rowmax_at (b h : Fin 8) (r : Fin 512) :
    val_main_v10 (F := Ideal) x0 x1 x3 x4 (ix3 b h r)
      = rowMax (logit (qHead (val_main_v0 (F := Ideal) x0) b h) (kHead (val_main_v1 (F := Ideal) x1) b h) (wHead x3 b) (mHead x4 b) r) := by
  unfold val_main_v10
  have hl : ∀ k : Fin 512, val_main_v9 (F := Ideal) x0 x1 x3 x4 (ix4 b h r k)
      = logit (qHead (val_main_v0 (F := Ideal) x0) b h) (kHead (val_main_v1 (F := Ideal) x1) b h) (wHead x3 b) (mHead x4 b) r k :=
    fun k => logit_at x0 x1 x3 x4 b h r k
  generalize val_main_v9 (F := Ideal) x0 x1 x3 x4 = y at hl ⊢
  refine (Host.reduce_eq_fold_single (FloatOps.maximumf (F := Ideal) (φ := .f32)) y _ Facts₀.reducesTo_S8x8x512x512_S8x8x512_d3 (by decide) Facts₀.h_S_ (ix3 b h r)).trans ?_
  unfold rowMax
  refine congrArg (fun f : Fin 512 → EReal => (Finset.univ : Finset (Fin 512)).fold max negInf f) (funext fun k => ?_)
  refine Eq.trans (congrArg y (funext fun a => ?_)) (hl k)
  match a with | ⟨0, _⟩ => rfl | ⟨1, _⟩ => rfl | ⟨2, _⟩ => rfl | ⟨3, _⟩ => rfl

/-- The maximum with `-∞` the reference takes once more. -/
theorem rowmax'_at (b h : Fin 8) (r : Fin 512) :
    val_main_v12 (F := Ideal) x0 x1 x3 x4 (ix3 b h r)
      = rowMax (logit (qHead (val_main_v0 (F := Ideal) x0) b h) (kHead (val_main_v1 (F := Ideal) x1) b h) (wHead x3 b) (mHead x4 b) r) := by
  rw [val_main_v12_apply, val_main_v11_apply, val_main_cst_3_apply, rowmax_at]
  exact max_negInf_rowMax _

/-- The exponentials. -/
theorem exp_at (b h : Fin 8) (r c : Fin 512) :
    val_main_v16 (F := Ideal) x0 x1 x3 x4 (ix4 b h r c)
      = Ideal.exp (logit (qHead (val_main_v0 (F := Ideal) x0) b h) (kHead (val_main_v1 (F := Ideal) x1) b h) (wHead x3 b) (mHead x4 b) r c
          - rowMax (logit (qHead (val_main_v0 (F := Ideal) x0) b h) (kHead (val_main_v1 (F := Ideal) x1) b h) (wHead x3 b) (mHead x4 b) r)) := by
  rw [val_main_v16_apply, val_main_v15_apply, logit_at, val_main_v14_apply, val_main_v13_apply, max_col_idx, rowmax'_at]
  rfl

/-- The row sums of the exponentials. -/
theorem expsum_at (b h : Fin 8) (r : Fin 512) :
    val_main_v17 (F := Ideal) x0 x1 x3 x4 (ix3 b h r)
      = ∑ c' : Fin 512, Ideal.exp (logit (qHead (val_main_v0 (F := Ideal) x0) b h) (kHead (val_main_v1 (F := Ideal) x1) b h) (wHead x3 b) (mHead x4 b) r c'
          - rowMax (logit (qHead (val_main_v0 (F := Ideal) x0) b h) (kHead (val_main_v1 (F := Ideal) x1) b h) (wHead x3 b) (mHead x4 b) r)) := by
  rw [val_main_v17_apply, val_main_cst_4_apply]
  show Ideal.ofBits .f32 0x00000000#32 + _ = _
  rw [Ideal.ofBits_zero_f32, zero_add]
  refine Finset.sum_congr rfl fun k _ => ?_
  rw [row_idx, exp_at]

/-- The probabilities. -/
theorem attn_at (b h : Fin 8) (r c : Fin 512) :
    val_main_v20 (F := Ideal) x0 x1 x3 x4 (ix4 b h r c)
      = attnH (qHead (val_main_v0 (F := Ideal) x0) b h) (kHead (val_main_v1 (F := Ideal) x1) b h) (wHead x3 b) (mHead x4 b) r c := by
  rw [val_main_v20_apply, exp_at, val_main_v19_apply, val_main_v18_apply, sum_col_idx, expsum_at]
  rfl

/-- The outputs. -/
theorem out_at (b h : Fin 8) (r : Fin 512) (d : Fin 64) :
    val_main_v22 (F := Ideal) x0 x1 x2 x3 x4 (ix4 b h r d)
      = outH (qHead (val_main_v0 (F := Ideal) x0) b h) (kHead (val_main_v1 (F := Ideal) x1) b h) (kHead x2 b h) (wHead x3 b) (mHead x4 b) r d := by
  rw [val_main_v22_apply]
  unfold outH
  refine Finset.sum_congr rfl fun k _ => ?_
  rw [mix_lidx, mix_ridx, attn_at, valsum_at]

/-! ## The whole results -/

/-- The reference's probabilities are the specification's, of the re-laid queries and keys. -/
theorem attn_eq : val_main_v20 (F := Ideal) x0 x1 x3 x4
    = attnAll (val_main_v0 (F := Ideal) x0) (val_main_v1 (F := Ideal) x1) x3 x4 := by
  funext i
  obtain ⟨b, h, r, c, rfl⟩ : ∃ (b h : Fin 8) (r c : Fin 512), i = ix4 b h r c := ⟨i 0, i 1, i 2, i 3, eq_ix4 i⟩
  rw [attnAll_ix]
  exact attn_at x0 x1 x3 x4 b h r c

/-- The reference's outputs are the specification's. -/
theorem out_eq : val_main_v22 (F := Ideal) x0 x1 x2 x3 x4
    = outAll (val_main_v0 (F := Ideal) x0) (val_main_v1 (F := Ideal) x1) x2 x3 x4 := by
  funext i
  obtain ⟨b, h, r, d, rfl⟩ : ∃ (b h : Fin 8) (r : Fin 512) (d : Fin 64), i = ix4 b h r d := ⟨i 0, i 1, i 2, i 3, eq_ix4 i⟩
  rw [outAll_ix]
  exact out_at x0 x1 x2 x3 x4 b h r d

end Cert.ReferenceIdeal.RefValue

end
-- ==== Proof.lean ====
/-
  Scaled dot-product attention with replicated keys and values, one head per grid point, against its jnp reference.

  Both programs compute, for every batch entry `b`, head `h`, query row `r`:
    logit r c = -1e9 where the mask is set, else (∑ d, (q r d / 8) · (∑ replicas of k c d)) · ω r c,
    attn r c  = exp (logit r c - max_c logit r c) / ∑ c', exp (logit r c' - max_c logit r c'),
    out r d   = ∑ j, attn r j · (∑ replicas of v j d).
  The kernel multiplies the queries by 0.125 where the reference divides by 8 (equal on every extended real, 0.125 being
  exactly 1/8), sums the four replicas as three additions of column slices where the reference reduces from zero (equal
  by associativity alone), and takes the row maximum once where the reference takes it once more against -∞ (which
  changes nothing). Every other operation is the same on both sides, so the precondition is never opened.

  The kernel's result arrays are read off its generated frame run block by block (KernelValue.lean, over Payload.lean's
  reading of the body), the reference's off its generated run stage by stage (RefValue.lean); both are the one
  specification of Spec.lean. The ideal pass rewrote nothing, so `preserves` is trivial.
-/
import proofs.«150136_j70858370449467_2_alg».proof.Defs
import proofs.«150136_j70858370449467_2_alg».proof.Proof.Gen.Kernel
import proofs.«150136_j70858370449467_2_alg».proof.Proof.Gen.Kernel.Skeleton
import proofs.«150136_j70858370449467_2_alg».proof.Proof.Gen.Kernel.Launch
import proofs.«150136_j70858370449467_2_alg».proof.Proof.Gen.Kernel.Points
import proofs.«150136_j70858370449467_2_alg».proof.Proof.Gen.Kernel.Frame
import proofs.«150136_j70858370449467_2_alg».proof.Proof.Gen.KernelIdeal
import proofs.«150136_j70858370449467_2_alg».proof.Proof.Gen.KernelIdeal.Skeleton
import proofs.«150136_j70858370449467_2_alg».proof.Proof.Gen.KernelIdeal.Launch
import proofs.«150136_j70858370449467_2_alg».proof.Proof.Gen.KernelIdeal.Points
import proofs.«150136_j70858370449467_2_alg».proof.Proof.Gen.KernelIdeal.Frame
import proofs.«150136_j70858370449467_2_alg».proof.Proof.Gen.ReferenceIdeal
import proofs.«150136_j70858370449467_2_alg».proof.Proof.Gen.Pre_finite_inputs
import proofs.«150136_j70858370449467_2_alg».proof.Proof.Gen.KernelIdeal.Value
import proofs.«150136_j70858370449467_2_alg».proof.Proof.Gen.ReferenceIdeal.Run
import proofs.«150136_j70858370449467_2_alg».proof.Proof.Gen.ReferenceIdeal.Read
import proofs.«150136_j70858370449467_2_alg».proof.Proof.KernelValue
import proofs.«150136_j70858370449467_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the specification's two arrays. -/
theorem algebraic : Cert.algebraic_KernelIdeal_ReferenceIdeal := by
  intro m ρ m' ρ' _ hagree
  refine ⟨fun c => Cert.KernelIdeal.Whole.outOf m c, fun c => Cert.KernelIdeal.Whole.attnOf m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v22_eq, Cert.ReferenceIdeal.RefValue.out_eq, (hagree c).1, (hagree c).2.1,
      (hagree c).2.2.1, (hagree c).2.2.2.1, (hagree c).2.2.2.2]
    rfl
  · rw [Cert.ReferenceIdeal.Read.val_main_v20_eq, Cert.ReferenceIdeal.RefValue.attn_eq, (hagree c).1, (hagree c).2.1,
      (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
